-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_

variable [Facts]

def fn {F : FTy → Type} [FloatOps F] (main_arg0 : FVec F S10000x128 .f32) (main_arg1 : FVec F S10000x10000 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  main_v8
-- ==== Kernel.lean ====
abbrev S10000x128 : Shape := ⟨2, ![10000, 128]⟩
abbrev S10000x10000 : Shape := ⟨2, ![10000, 10000]⟩
abbrev S512x10000 : Shape := ⟨2, ![512, 10000]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .local _ .vmem, ⟨0, _⟩ => ⟨S10000x128, .f32⟩
  | .local _ .vmem, ⟨1, _⟩ => ⟨S512x10000, .f32⟩
  | .local _ .vmem, ⟨2, _⟩ => ⟨S512x10000, .f32⟩
  | .local _ .vmem, ⟨3, _⟩ => ⟨S512x128, .f32⟩
  | .local _ .vmem, ⟨4, _⟩ => ⟨S512x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x10000_S512x10000_0_0 : ∀ a, (![0, 0] : Fin 2 → Nat) a + S512x10000.size a ≤ S512x10000.size a
  h_S512x10000 : 0 < S512x10000.numel
  inb_S10000x128_S10000x128_0_0 : ∀ a, (![0, 0] : Fin 2 → Nat) a + S10000x128.size a ≤ S10000x128.size a
  h_S10000x128 : 0 < S10000x128.numel
  inb_S512x128_S512x128_0_0 : ∀ a, (![0, 0] : Fin 2 → Nat) a + S512x128.size a ≤ S512x128.size a
  h_S512x128 : 0 < S512x128.numel
  dot_S512x10000_S10000x128_S512x128_1_0_0_1_n_n_wf : DotDims.WF S512x10000 S10000x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x10000.size a < S10000x10000.size a
  hwx0_1 : ∀ i : grid0.Coords, EltTy.bits .f32 = 32 ∨ (Rect.unit (s := S10000x10000) (fun a => cc0_transform_1 i a * S512x10000.size a) (fun a => (Pipeline.Clip.of (cc0_transform_1 i a) (S512x10000.size a) (S10000x10000.size a)).extent (S512x10000.size a)) fun a => Pipeline.Clip.inb (Pipeline.Clip.ok_of (hstart0_1 i a))).WholeWords (EltTy.packing .f32)
  hwxs0_1 : ∀ i : grid0.Coords, EltTy.bits .f32 = 32 ∨ (Rect.unit (s := S512x10000) (fun _ => 0) (fun a => (Pipeline.Clip.of (cc0_transform_1 i a) (S512x10000.size a) (S10000x10000.size a)).extent (S512x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x128.size a < S10000x128.size a
  hwx0_2 : ∀ i : grid0.Coords, EltTy.bits .f32 = 32 ∨ (Rect.unit (s := S10000x128) (fun a => cc0_transform_2 i a * S512x128.size a) (fun a => (Pipeline.Clip.of (cc0_transform_2 i a) (S512x128.size a) (S10000x128.size a)).extent (S512x128.size a)) fun a => Pipeline.Clip.inb (Pipeline.Clip.ok_of (hstart0_2 i a))).WholeWords (EltTy.packing .f32)
  hwxs0_2 : ∀ i : grid0.Coords, EltTy.bits .f32 = 32 ∨ (Rect.unit (s := S512x128) (fun _ => 0) (fun a => (Pipeline.Clip.of (cc0_transform_2 i a) (S512x128.size a) (S10000x128.size a)).extent (S512x128.size a)) fun a => (Nat.zero_add _).trans_le (Pipeline.Clip.extent_le (Pipeline.Clip.ok_of (hstart0_2 i a)))).WholeWords (EltTy.packing .f32)

variable [Facts₀]

def dot_S512x10000_S10000x128_S512x128_1_0_0_1_n_n : DotDims S512x10000 S10000x128 S512x128 where
  lhsContracting := [1]
  rhsContracting := [0]
  lhsNonContracting := [0]
  rhsNonContracting := [1]
  lhsBatch := []
  rhsBatch := []
  wf := dot_S512x10000_S10000x128_S512x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S512x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩

abbrev nBuf : Space → Nat
  | .hbm => 3
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelBody.lean ====
/-
  The kernel body on any whole staging buffers: it reads the adjacency row block (512 × 10000) and the whole
  feature matrix (10000 × 128), forms their matrix product into a zero accumulator, reads the result block's
  buffer (a dead read) and overwrites that buffer whole with the product. So the two input buffers are left as
  found and the result block's buffer holds the product of what the other two hold, whatever it held before.
  Stated for any float instance: nothing here looks inside the product.
-/
import proofs.«127302_g31250182046301_cont_9to1_2121_6_alg».proof.Proof.Gen.Kernel.Frame
import proofs.«127302_g31250182046301_cont_9to1_2121_6_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three accesses are through the whole buffers: offsets zero, the buffers' own sizes. -/
abbrev rAdj : Rect S512x10000 := Rect.unit (s := S512x10000) ![0, 0] S512x10000.size inb_S512x10000_S512x10000_0_0
abbrev rSup : Rect S10000x128 := Rect.unit (s := S10000x128) ![0, 0] S10000x128.size inb_S10000x128_S10000x128_0_0
abbrev rOut : Rect S512x128 := Rect.unit (s := S512x128) ![0, 0] S512x128.size inb_S512x128_S512x128_0_0

theorem zeros2 : (![0, 0] : Fin 2 → Nat) = fun _ => 0 := funext fun a => by fin_cases a <;> rfl

/-- What the result block's buffer holds after the body, from what the feature matrix's buffer (`sup`) and the
    adjacency block's buffer (`adj`) hold: the one store's payload, written through the whole buffer. -/
def outBlk (sup : Vec F S10000x128 .f32) (adj : Vec F S512x10000 .f32) : Vec F S512x128 .f32 :=
  View.canon [⟨rOut, k0_pay1 (View.ld adj rAdj) (View.ld sup rSup)⟩]

/-- A whole-buffer store leaves its payload, and whole-buffer loads read the contents: the result block's buffer
    ends at the product of the two buffers' contents. -/
theorem outBlk_eq (sup : Vec F S10000x128 .f32) (adj : Vec F S512x10000 .f32) : outBlk sup adj = k0_pay1 adj sup := by
  unfold outBlk
  rw [View.canon_unit_zero zeros2, View.ld_unit_zero (S := S512x10000) zeros2, View.ld_unit_zero (S := S10000x128) zeros2]

set_option maxHeartbeats 1000000 in
/-- The body's triple on any whole staging buffers. -/
theorem sound_kernel (c : Dev nD) (E : Set ℕ) (i : grid0.Coords)
    (arg1 : Memref sig .tc .vmem S10000x128 .f32) (harg1 : arg1.IsWhole)
    (arg2 : Memref sig .tc .vmem S512x10000 .f32) (harg2 : arg2.IsWhole)
    (arg3 : Memref sig .tc .vmem S512x128 .f32) (harg3 : arg3.IsWhole)
    (sup : Vec F S10000x128 .f32) (adj : Vec F S512x10000 .f32) (K : PUnit → sProp 𝕄) :
    iprop(owns (c : Thread nD τ) arg1 fullShare sup ∗ owns (c : Thread nD τ) arg2 fullShare adj ∗ (∃ d, owns (c : Thread nD τ) arg3 fullShare d)
        ∗ (iprop(owns (c : Thread nD τ) arg1 fullShare sup ∗ owns (c : Thread nD τ) arg2 fullShare adj ∗ owns (c : Thread nD τ) arg3 fullShare (outBlk sup adj)) -∗ K ⟨⟩))
      ⊢ wp frame (wpE (defs₀ (F := F)) Variants.none c none) E (cc0__mm_block i arg1 harg1 arg2 harg2 arg3 harg3) K := by
  simp only [cc0__mm_block_eq_skeleton]; unfold cc0__mm_block_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (fun y => ⟨_, List.mem_singleton_self _, View.mem_set_unit_zero zeros2 inb_S512x128_S512x128_0_0 y⟩)

end Cert.Kernel.Body

end
-- ==== Proof.KernelFrame.lean ====
/-
  The frame of the kernel as printed: it runs to the end, faults nowhere, and leaves both argument arrays as
  launched. The grid has twenty points; point t stages rows 512·t … 512·t+511 of the adjacency matrix beside the
  whole feature matrix and writes the product block back to the same rows of the result. The last block overhangs
  the arrays (20 · 512 = 10240 > 10000): its fetch fills only the rows inside the adjacency matrix, and the rest of
  the staging buffer holds words nothing names. The frame needs nothing of what the product is, so the result's
  staging buffer is handed over and taken back at arbitrary contents, and the adjacency block's buffer is described
  only on the rows the fetch filled. Stated for any float instance.
-/
import proofs.«127302_g31250182046301_cont_9to1_2121_6_alg».proof.Proof.KernelBody
import Idealize.ShloMosaic.Lib.Pipeline.Frame

set_option maxRecDepth 16384

noncomputable section

namespace Cert.Kernel.FrameRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window is the one whose staging contents the frame never reads. -/
def forgets : Fin 3 → Bool := fun w => w.val == 2

/-- The proof data on core `c`: the arrays as launched; after the body at point `t` the feature matrix's buffer
    holds the feature matrix, the adjacency block's buffer its block on the rows inside the array (filled out with
    a word nothing reads), the result's buffer is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => Classical.arbitrary _) (iblk m c 1 t)
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) :
    (dats m 0 c).after 1 t = (cfg0.win 1).fill (cfg0.grid.coords t) (fun _ => Classical.arbitrary _) (iblk m c 1 t) := by
  dsimp only [dats]

/-- The feature matrix is fetched once and never moves: its buffer holds it at every point. -/
theorem before_0 (c : Dev nD) (t : Fin cfg0.N) (d) : (dats m 0 c).before 0 t d = iblk m c 0 t :=
  before0_0_of m (dats m 0 c) (A_eq m c 0) (after_0 m c) t d

/-- The adjacency block is fetched at every point: its buffer holds the block's rows inside the array, and on the
    other rows whatever it held. -/
theorem before_1 (c : Dev nD) (t : Fin cfg0.N) (d) :
    (dats m 0 c).before 1 t d = (cfg0.win 1).fill (cfg0.grid.coords t) d (iblk m c 1 t) := by
  unfold Dat.before; rw [if_pos (fetch0_1 t)]; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ X, owns (c : Thread nD τ) (st0_2 t) fullShare X))

/-- The body at any point leaves the two input buffers as it found them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, Window.cut_fill]
  iintro ⟨HΦ, Ho, ⟨%d0, H0⟩, ⟨%d1, H1⟩, ⟨%d2, H2⟩⟩
  iapply (Cert.Kernel.Body.sound_kernel c Set.univ _ _ _ _ _ _ _ (iblk m c 0 t)
    ((cfg0.win 1).fill (cfg0.grid.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists d1; iexact H1
  iexists _; iexact H2

theorem body_obligation (c : Dev nD) :
    BodyObligationLoose (dats (F := F) m 0 c) (defs₀ (F := F)) Variants.none () Set.univ forgets := fun t => by
  rw [bigSep_W0, bigSep_W0]
  exact sound_body m c t

set_option backward.isDefEq.respectTransparency.types false in
/-- Every weakly fair execution of @main terminates, and every final state has the two input arrays as launched. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun (((dats m 0 c).toRForget forgets).ArrAt_in 0 rfl _) _) ((h c).1 0)).trans
        ((A_eq m c 0).trans (V_main_arg0 m c)),
      (Eq.mp (congrFun (((dats m 0 c).toRForget forgets).ArrAt_in 1 rfl _) _) ((h c).1 1)).trans
        ((A_eq m c 1).trans (V_main_arg1 m c))⟩) (run_main m ρ)

end Cert.Kernel.FrameRun

end
-- ==== Proof.IdealBody.lean ====
/-
  The kernel body on any whole staging buffers: it reads the adjacency row block (512 × 10000) and the whole
  feature matrix (10000 × 128), forms their matrix product into a zero accumulator, reads the result block's
  buffer (a dead read) and overwrites that buffer whole with the product. So the two input buffers are left as
  found and the result block's buffer holds the product of what the other two hold, whatever it held before.
  Stated for any float instance: nothing here looks inside the product.
-/
import proofs.«127302_g31250182046301_cont_9to1_2121_6_alg».proof.Proof.Gen.KernelIdeal.Frame
import proofs.«127302_g31250182046301_cont_9to1_2121_6_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three accesses are through the whole buffers: offsets zero, the buffers' own sizes. -/
abbrev rAdj : Rect S512x10000 := Rect.unit (s := S512x10000) ![0, 0] S512x10000.size inb_S512x10000_S512x10000_0_0
abbrev rSup : Rect S10000x128 := Rect.unit (s := S10000x128) ![0, 0] S10000x128.size inb_S10000x128_S10000x128_0_0
abbrev rOut : Rect S512x128 := Rect.unit (s := S512x128) ![0, 0] S512x128.size inb_S512x128_S512x128_0_0

theorem zeros2 : (![0, 0] : Fin 2 → Nat) = fun _ => 0 := funext fun a => by fin_cases a <;> rfl

/-- What the result block's buffer holds after the body, from what the feature matrix's buffer (`sup`) and the
    adjacency block's buffer (`adj`) hold: the one store's payload, written through the whole buffer. -/
def outBlk (sup : Vec F S10000x128 .f32) (adj : Vec F S512x10000 .f32) : Vec F S512x128 .f32 :=
  View.canon [⟨rOut, k0_pay1 (View.ld adj rAdj) (View.ld sup rSup)⟩]

/-- A whole-buffer store leaves its payload, and whole-buffer loads read the contents: the result block's buffer
    ends at the product of the two buffers' contents. -/
theorem outBlk_eq (sup : Vec F S10000x128 .f32) (adj : Vec F S512x10000 .f32) : outBlk sup adj = k0_pay1 adj sup := by
  unfold outBlk
  rw [View.canon_unit_zero zeros2, View.ld_unit_zero (S := S512x10000) zeros2, View.ld_unit_zero (S := S10000x128) zeros2]

set_option maxHeartbeats 1000000 in
/-- The body's triple on any whole staging buffers. -/
theorem sound_kernel (c : Dev nD) (E : Set ℕ) (i : grid0.Coords)
    (arg1 : Memref sig .tc .vmem S10000x128 .f32) (harg1 : arg1.IsWhole)
    (arg2 : Memref sig .tc .vmem S512x10000 .f32) (harg2 : arg2.IsWhole)
    (arg3 : Memref sig .tc .vmem S512x128 .f32) (harg3 : arg3.IsWhole)
    (sup : Vec F S10000x128 .f32) (adj : Vec F S512x10000 .f32) (K : PUnit → sProp 𝕄) :
    iprop(owns (c : Thread nD τ) arg1 fullShare sup ∗ owns (c : Thread nD τ) arg2 fullShare adj ∗ (∃ d, owns (c : Thread nD τ) arg3 fullShare d)
        ∗ (iprop(owns (c : Thread nD τ) arg1 fullShare sup ∗ owns (c : Thread nD τ) arg2 fullShare adj ∗ owns (c : Thread nD τ) arg3 fullShare (outBlk sup adj)) -∗ K ⟨⟩))
      ⊢ wp frame (wpE (defs₀ (F := F)) Variants.none c none) E (cc0__mm_block i arg1 harg1 arg2 harg2 arg3 harg3) K := by
  simp only [cc0__mm_block_eq_skeleton]; unfold cc0__mm_block_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (fun y => ⟨_, List.mem_singleton_self _, View.mem_set_unit_zero zeros2 inb_S512x128_S512x128_0_0 y⟩)

end Cert.KernelIdeal.Body

end
-- ==== Proof.IdealPayload.lean ====
/-
  The stored block as a matrix product over the extended reals. At the ideal instance the body's one payload — the
  matrix unit's product of the adjacency block (512 × 10000) and the feature matrix (10000 × 128) into a zero
  accumulator — is, entry by entry, the plain sum over k of (row r of the block at k) · (row k of the features at
  column c): no rounding, no chunk order. So row r of the stored block depends on row r of the adjacency block only.
-/
import proofs.«127302_g31250182046301_cont_9to1_2121_6_alg».proof.Proof.Gen.KernelIdeal.Skeleton
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx

/-- The left operand's index at output (r, ·) and contraction index q: row r, -/
theorem lhs_row (i : S512x128.Idx) (q : dot_S512x10000_S10000x128_S512x128_1_0_0_1_n_n.contr.Idx) :
    (dot_S512x10000_S10000x128_S512x128_1_0_0_1_n_n.lhsIdx i q 0).val = (i 0).val := by
  unfold DotDims.lhsIdx
  rw [dif_neg (show ¬(0 : Fin S512x10000.rank) ∈ dot_S512x10000_S10000x128_S512x128_1_0_0_1_n_n.lhsBatch by decide),
    dif_pos (show (0 : Fin S512x10000.rank) ∈ dot_S512x10000_S10000x128_S512x128_1_0_0_1_n_n.lhsNonContracting by decide)]
  rfl
/-- column q; -/
theorem lhs_col (i : S512x128.Idx) (q : dot_S512x10000_S10000x128_S512x128_1_0_0_1_n_n.contr.Idx) :
    (dot_S512x10000_S10000x128_S512x128_1_0_0_1_n_n.lhsIdx i q 1).val = (q ⟨0, by decide⟩).val :=
  dot_S512x10000_S10000x128_S512x128_1_0_0_1_n_n.lhsIdx_val_of_single rfl i q
/-- the right operand's: row q, -/
theorem rhs_row (i : S512x128.Idx) (q : dot_S512x10000_S10000x128_S512x128_1_0_0_1_n_n.contr.Idx) :
    (dot_S512x10000_S10000x128_S512x128_1_0_0_1_n_n.rhsIdx i q 0).val = (q ⟨0, by decide⟩).val :=
  dot_S512x10000_S10000x128_S512x128_1_0_0_1_n_n.rhsIdx_val_of_single rfl i q
/-- column c. -/
theorem rhs_col (i : S512x128.Idx) (q : dot_S512x10000_S10000x128_S512x128_1_0_0_1_n_n.contr.Idx) :
    (dot_S512x10000_S10000x128_S512x128_1_0_0_1_n_n.rhsIdx i q 1).val = (i 1).val := by
  unfold DotDims.rhsIdx
  rw [dif_neg (show ¬(1 : Fin S10000x128.rank) ∈ dot_S512x10000_S10000x128_S512x128_1_0_0_1_n_n.rhsBatch by decide),
    dif_pos (show (1 : Fin S10000x128.rank) ∈ dot_S512x10000_S10000x128_S512x128_1_0_0_1_n_n.rhsNonContracting by decide)]
  rfl

/-- Entry (r, c) of the stored block is the sum over k of adj(r, k) · sup(k, c). -/
theorem pay_apply (adj : Vec Ideal S512x10000 .f32) (sup : Vec Ideal S10000x128 .f32) (r : Fin 512) (cc : Fin 128) :
    k0_pay1 (F := Ideal) adj sup (ix2 r cc) = ∑ k : Fin 10000, adj (ix2 r k) * sup (ix2 k cc) := by
  unfold k0_pay1
  simp only [matmul]
  rw [Ideal.matmul_constant_zero_apply,
    ← Equiv.sum_comp (contrEquiv1 dot_S512x10000_S10000x128_S512x128_1_0_0_1_n_n 10000 rfl rfl).symm]
  refine Finset.sum_congr rfl fun k _ => ?_
  have hk := contrEquiv1_symm_val dot_S512x10000_S10000x128_S512x128_1_0_0_1_n_n 10000 rfl rfl k
  have el : dot_S512x10000_S10000x128_S512x128_1_0_0_1_n_n.lhsIdx (ix2 r cc) ((contrEquiv1 dot_S512x10000_S10000x128_S512x128_1_0_0_1_n_n 10000 rfl rfl).symm k) = ix2 r k :=
    funext fun a => Fin.ext (by
      match a with
      | ⟨0, _⟩ => exact lhs_row _ _
      | ⟨1, _⟩ => exact (lhs_col _ _).trans hk)
  have er : dot_S512x10000_S10000x128_S512x128_1_0_0_1_n_n.rhsIdx (ix2 r cc) ((contrEquiv1 dot_S512x10000_S10000x128_S512x128_1_0_0_1_n_n 10000 rfl rfl).symm k) = ix2 k cc :=
    funext fun a => Fin.ext (by
      match a with
      | ⟨0, _⟩ => exact (rhs_row _ _).trans hk
      | ⟨1, _⟩ => exact rhs_col _ _)
  rw [el, er]

/-- Two adjacency blocks that agree on row r give stored blocks that agree on row r. -/
theorem pay_congr_row (adj adj' : Vec Ideal S512x10000 .f32) (sup : Vec Ideal S10000x128 .f32) (r : Fin 512) (cc : Fin 128)
    (h : ∀ k : Fin 10000, adj (ix2 r k) = adj' (ix2 r k)) :
    k0_pay1 (F := Ideal) adj sup (ix2 r cc) = k0_pay1 (F := Ideal) adj' sup (ix2 r cc) := by
  rw [pay_apply, pay_apply]
  exact Finset.sum_congr rfl fun k _ => by rw [h k]

end Cert.KernelIdeal.Payload

end
-- ==== Proof.MatProduct.lean ====
/-
  The matrix product of a 10000 × 10000 matrix A and a 10000 × 128 matrix B over the extended reals, entry by
  entry: (A·B)(r, c) = Σ_k A(r, k) · B(k, c), the sum over all 10000 values of k. Addition of extended reals is
  commutative and associative, so the sum needs no order; nothing here assumes the entries finite.
-/
import Idealize.ShloMosaic.PureOps.Ideal
import Idealize.ShloMosaic.Lib.ValueIdx

noncomputable section

namespace Cert.MatProduct

open Idealize.ShloMosaic Idealize.ShloMosaic.ValueIdx

/-- Entry (r, c) of A·B. -/
def prod (A : (⟨2, ![10000, 10000]⟩ : Shape).Idx → EReal) (B : (⟨2, ![10000, 128]⟩ : Shape).Idx → EReal) :
    (⟨2, ![10000, 128]⟩ : Shape).Idx → EReal :=
  fun i => ∑ k : Fin 10000, A (ix2 (i 0) k) * B (ix2 k (i 1))

theorem prod_apply (A : (⟨2, ![10000, 10000]⟩ : Shape).Idx → EReal) (B : (⟨2, ![10000, 128]⟩ : Shape).Idx → EReal)
    (r : Fin 10000) (cc : Fin 128) : prod A B (ix2 r cc) = ∑ k : Fin 10000, A (ix2 r k) * B (ix2 k cc) := rfl

end Cert.MatProduct

end
-- ==== Proof.IdealRun.lean ====
/-
  The idealized kernel's run and the result it leaves. The grid has twenty points; point t stages rows
  512·t … 512·t+511 of the adjacency matrix A beside the whole feature matrix B, and writes the product of the
  two staging buffers back to the same rows of the result. The last block overhangs the arrays
  (20 · 512 = 10240 > 10000): at point 19 only the first 272 rows of the adjacency buffer are fetched and only the
  first 272 rows of the result's buffer are written back; the other rows hold words nothing names.
  Over the extended reals entry (r, c) of the product of the buffers is Σ_k (row r of the adjacency buffer at k) ·
  B(k, c), so the rows that are written back depend only on rows that were fetched: row r of block t is row
  512·t + r of A·B. The blocks' written rows are 0…511, 512…1023, …, 9728…9999, which together are all the rows:
  the result array ends holding A·B, and the two argument arrays are left as launched.
-/
import proofs.«127302_g31250182046301_cont_9to1_2121_6_alg».proof.Proof.IdealBody
import proofs.«127302_g31250182046301_cont_9to1_2121_6_alg».proof.Proof.IdealPayload
import proofs.«127302_g31250182046301_cont_9to1_2121_6_alg».proof.Proof.MatProduct
import Idealize.ShloMosaic.Lib.Pipeline.Frame
import Idealize.ShloMosaic.Lib.Pipeline.Value

set_option maxRecDepth 16384

noncomputable section

namespace Cert.KernelIdeal.ValueRun

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The schedule, decided over the twenty points -/

/-- How many rows and columns each transfer moves: the adjacency block's and the result block's row counts agree
    (512, at the last point 272); every column is moved. -/
theorem size_facts : ∀ t : Fin cfg0.N,
    win0_1.xsize (grid0.coords t) (0 : Fin 2) = win0_2.xsize (grid0.coords t) (0 : Fin 2)
    ∧ win0_1.xsize (grid0.coords t) (1 : Fin 2) = 10000
    ∧ win0_2.xsize (grid0.coords t) (1 : Fin 2) = 128
    ∧ win0_2.xsize (grid0.coords t) (0 : Fin 2) = (if t.val = 19 then 272 else 512) :=
  (by decide +kernel : ∀ t : Fin grid0.N, _)

/-- The block indices: the feature matrix is block (0, 0) at every point; the adjacency block and the result block
    at point t are block (t, 0). -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-! ## The proof data -/

/-- After the body at point `t`: the feature matrix's buffer holds the feature matrix; the adjacency block's buffer
    its block on the fetched rows (filled out with a word nothing reads); the result's buffer the product of those. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => Classical.arbitrary _) (iblk m c 1 t)
    | ⟨2, _⟩ => k0_pay1 (F := Ideal)
        ((cfg0.win 1).fill (cfg0.grid.coords t) (fun _ => Classical.arbitrary _) (iblk m c 1 t)) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) :
    (dats m 0 c).after 1 t = (cfg0.win 1).fill (cfg0.grid.coords t) (fun _ => Classical.arbitrary _) (iblk m c 1 t) := by
  dsimp only [dats]
theorem after_2 (c : Dev nD) (t : Fin cfg0.N) :
    (dats m 0 c).after 2 t = k0_pay1 (F := Ideal)
      ((cfg0.win 1).fill (cfg0.grid.coords t) (fun _ => Classical.arbitrary _) (iblk m c 1 t)) (iblk m c 0 t) := by
  dsimp only [dats]

/-- The feature matrix is fetched once and never moves: its buffer holds it at every point. -/
theorem before_0 (c : Dev nD) (t : Fin cfg0.N) (d) : (dats m 0 c).before 0 t d = iblk m c 0 t :=
  before0_0_of m (dats m 0 c) (A_eq m c 0) (after_0 m c) t d

/-- The adjacency block is fetched at every point: its buffer holds the block on the fetched rows, and on the
    others whatever it held. -/
theorem before_1 (c : Dev nD) (t : Fin cfg0.N) (d) :
    (dats m 0 c).before 1 t d = (cfg0.win 1).fill (cfg0.grid.coords t) d (iblk m c 1 t) := by
  unfold Dat.before; rw [if_pos (fetch0_1 t)]; rfl

/-! ## Rows that are written back depend only on rows that were fetched -/

/-- An entry of the adjacency buffer in a row the result's write-back moves is in the part the fetch filled. -/
theorem moved_row (t : Fin cfg0.N) (r : Fin 512) (k : Fin 10000) (hr : r.val < win0_2.xsize (grid0.coords t) (0 : Fin 2)) :
    (cfg0.win 1).moved (cfg0.grid.coords t) (ix2 r k) = true := by
  rw [Window.moved_iff]
  obtain ⟨e0, e1, -, -⟩ := size_facts t
  intro a
  match a with
  | ⟨0, _⟩ => show r.val < win0_1.xsize (grid0.coords t) (0 : Fin 2); omega
  | ⟨1, _⟩ => show k.val < win0_1.xsize (grid0.coords t) (1 : Fin 2); have := k.isLt; omega

/-- So there the buffer holds the block, whatever it held before the fetch. -/
theorem fill_row (t : Fin cfg0.N) (d d' : (cfg0.win 1).block.Idx → Elt Ideal (cfg0.win 1).elt)
    (g : ((cfg0.win 1).xblock (cfg0.grid.coords t)).Idx → Elt Ideal (cfg0.win 1).elt)
    (r : Fin 512) (k : Fin 10000) (hr : r.val < win0_2.xsize (grid0.coords t) (0 : Fin 2)) :
    (cfg0.win 1).fill (cfg0.grid.coords t) d g (ix2 r k) = (cfg0.win 1).fill (cfg0.grid.coords t) d' g (ix2 r k) := by
  have hm := moved_row t r k hr
  unfold Window.fill; rw [dif_pos hm, dif_pos hm]

/-- The rows of the product that are written back do not depend on what the unfetched rows held. -/
theorem cut_pay_eq (t : Fin cfg0.N) (d d' : (cfg0.win 1).block.Idx → Elt Ideal (cfg0.win 1).elt)
    (g : ((cfg0.win 1).xblock (cfg0.grid.coords t)).Idx → Elt Ideal (cfg0.win 1).elt) (sup : Vec Ideal S10000x128 .f32) :
    (cfg0.win 2).cut (cfg0.grid.coords t) (k0_pay1 (F := Ideal) ((cfg0.win 1).fill (cfg0.grid.coords t) d g) sup)
      = (cfg0.win 2).cut (cfg0.grid.coords t) (k0_pay1 (F := Ideal) ((cfg0.win 1).fill (cfg0.grid.coords t) d' g) sup) := by
  funext y
  have hy0 : (y 0).val < win0_2.xsize (grid0.coords t) (0 : Fin 2) := (y 0).isLt
  have hx : (cfg0.win 2).xinj (cfg0.grid.coords t) y = ix2 (((cfg0.win 2).xinj (cfg0.grid.coords t) y) 0) (((cfg0.win 2).xinj (cfg0.grid.coords t) y) 1) :=
    eq_ix2 _
  show k0_pay1 (F := Ideal) _ sup ((cfg0.win 2).xinj (cfg0.grid.coords t) y) = k0_pay1 (F := Ideal) _ sup ((cfg0.win 2).xinj (cfg0.grid.coords t) y)
  rw [hx]
  exact Payload.pay_congr_row _ _ sup _ _ fun k => fill_row t d d' g _ k hy0

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the adjacency block's and the result's buffers described on the moved rows only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, Window.cut_fill]
  iintro ⟨HΦ, Ho, ⟨%d0, H0⟩, ⟨%d1, H1⟩, ⟨%d2, H2⟩⟩
  iapply (Cert.KernelIdeal.Body.sound_kernel c Set.univ _ _ _ _ _ _ _ (iblk m c 0 t)
    ((cfg0.win 1).fill (cfg0.grid.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists d1; iexact H1
  iexists k0_pay1 (F := Ideal) ((cfg0.win 1).fill (cfg0.grid.coords t) d1 (iblk m c 1 t)) (iblk m c 0 t)
  rw [Window.fill_congr_cut _ _ (cut_pay_eq t d1 (fun _ => Classical.arbitrary _) (iblk m c 1 t) (iblk m c 0 t)),
    ← Cert.KernelIdeal.Body.outBlk_eq]
  iexact H2

theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates, every array of the pipeline at what the proof data computes. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-! ## The result array -/

/-- An entry of the adjacency block at point t is the entry of A in row 512·t + (its row). -/
theorem adj_at (c : Dev nD) (t : Fin cfg0.N) (j : ((cfg0.win 1).xblock (cfg0.grid.coords t)).Idx) (i : S10000x10000.Idx)
    (h0 : (i 0).val = t.val * 512 + (j 0).val) (h1 : (i 1).val = (j 1).val) :
    iblk m c 1 t j = V m c main_arg1 i := by
  obtain ⟨-, -, i2, i3, -, -⟩ := idx_facts t
  show V m c main_arg1 (((cfg0.win 1).blk t).view.emb j) = V m c main_arg1 i
  refine congrArg _ (funext fun a => Fin.ext ?_)
  match a with
  | ⟨0, _⟩ => show win0_1.index t (0 : Fin 2) * 512 + 1 * (j 0).val = (i 0).val; omega
  | ⟨1, _⟩ => show win0_1.index t (1 : Fin 2) * 10000 + 1 * (j 1).val = (i 1).val; omega

/-- The feature matrix's block is the feature matrix. -/
theorem sup_at (c : Dev nD) (t : Fin cfg0.N) (j : ((cfg0.win 0).xblock (cfg0.grid.coords t)).Idx) (i : S10000x128.Idx)
    (h0 : (i 0).val = (j 0).val) (h1 : (i 1).val = (j 1).val) :
    iblk m c 0 t j = V m c main_arg0 i := by
  obtain ⟨i0, i1, -, -, -, -⟩ := idx_facts t
  show V m c main_arg0 (((cfg0.win 0).blk t).view.emb j) = V m c main_arg0 i
  refine congrArg _ (funext fun a => Fin.ext ?_)
  match a with
  | ⟨0, _⟩ => show win0_0.index t (0 : Fin 2) * 10000 + 1 * (j 0).val = (i 0).val; omega
  | ⟨1, _⟩ => show win0_0.index t (1 : Fin 2) * 128 + 1 * (j 1).val = (i 1).val; omega

/-- WHAT POINT `t` WRITES BACK is block t of A·B. -/
theorem flushed_eq (c : Dev nD) (t : Fin cfg0.N) :
    (dats m 0 c).flushed 2 t
      = ((cfg0.win 2).blk t).view.read (Elt Ideal) (Cert.MatProduct.prod (V m c main_arg1) (V m c main_arg0)) := by
  show (cfg0.win 2).cut (grid0.coords t) ((dats m 0 c).after 2 t) = _
  rw [after_2]
  funext y
  obtain ⟨-, -, s2, s3⟩ := size_facts t
  obtain ⟨-, -, -, -, i4, i5⟩ := idx_facts t
  have hN : t.val < 20 := Nat.lt_of_lt_of_eq t.isLt N_0
  have hy0 : (y 0).val < win0_2.xsize (grid0.coords t) (0 : Fin 2) := (y 0).isLt
  have hy1 : (y 1).val < win0_2.xsize (grid0.coords t) (1 : Fin 2) := (y 1).isLt
  have hr512 : (y 0).val < 512 := by rw [s3] at hy0; split_ifs at hy0 <;> omega
  have hrow : t.val * 512 + (y 0).val < 10000 := by rw [s3] at hy0; split_ifs at hy0 <;> omega
  have hc128 : (y 1).val < 128 := by omega
  have hx : (cfg0.win 2).xinj (cfg0.grid.coords t) y = ix2 (⟨(y 0).val, hr512⟩ : Fin 512) (⟨(y 1).val, hc128⟩ : Fin 128) :=
    funext fun a => by
      match a with
      | ⟨0, _⟩ => rfl
      | ⟨1, _⟩ => rfl
  have he : ((cfg0.win 2).blk t).view.emb y = ix2 (⟨t.val * 512 + (y 0).val, hrow⟩ : Fin 10000) (⟨(y 1).val, hc128⟩ : Fin 128) := by
    funext a; apply Fin.ext
    match a with
    | ⟨0, _⟩ => show win0_2.index t (0 : Fin 2) * 512 + 1 * (y 0).val = t.val * 512 + (y 0).val; omega
    | ⟨1, _⟩ => show win0_2.index t (1 : Fin 2) * 128 + 1 * (y 1).val = (y 1).val; omega
  show k0_pay1 (F := Ideal) _ _ ((cfg0.win 2).xinj (cfg0.grid.coords t) y)
    = Cert.MatProduct.prod (V m c main_arg1) (V m c main_arg0) (((cfg0.win 2).blk t).view.emb y)
  rw [hx, he]
  refine (Payload.pay_apply _ _ _ _).trans ?_
  refine Eq.trans ?_ (Cert.MatProduct.prod_apply _ _ _ _).symm
  refine Finset.sum_congr rfl fun k _ => ?_
  have hm := moved_row t (⟨(y 0).val, hr512⟩ : Fin 512) k hy0
  have ea : (cfg0.win 1).fill (cfg0.grid.coords t) (fun _ => Classical.arbitrary _) (iblk m c 1 t) (ix2 (⟨(y 0).val, hr512⟩ : Fin 512) k)
      = V m c main_arg1 (ix2 (⟨t.val * 512 + (y 0).val, hrow⟩ : Fin 10000) k) := by
    unfold Window.fill; rw [dif_pos hm]
    exact adj_at m c t _ _ rfl rfl
  have eb : iblk m c 0 t (ix2 k (⟨(y 1).val, hc128⟩ : Fin 128)) = V m c main_arg0 (ix2 k (⟨(y 1).val, hc128⟩ : Fin 128)) :=
    sup_at m c t _ _ rfl rfl
  rw [ea, eb]

/-- An index of the result is in point `t`'s block iff each coordinate is in the block's moved range on its axis. -/
theorem mem_blk (t : Fin cfg0.N) (i : S10000x128.Idx) :
    i ∈ ((cfg0.win 2).blk t).view.set ↔ ∀ a : Fin 2, win0_2.index t a * S512x128.size a ≤ (i a).val
      ∧ (i a).val < win0_2.index t a * S512x128.size a + win0_2.xsize (grid0.coords t) a := by
  show i ∈ ((View.whole main_v0).slice (win0_2.rect t)).set ↔ _
  rw [View.set_slice_whole, Rect.mem_set_unit]
  exact Iff.rfl

/-- Every row of the result is written back by the point whose block holds it: row r by point r / 512. -/
theorem cover (i : S10000x128.Idx) :
    ∃ t : Fin cfg0.N, (cfg0.win 2).flush t = true ∧ i ∈ ((cfg0.win 2).blk t).view.set := by
  have h0 : (i 0).val < 10000 := idx2_lt0 i
  have h1 : (i 1).val < 128 := idx2_lt1 i
  have hN : cfg0.N = 20 := N_0
  obtain ⟨t, ht⟩ : ∃ t : Fin cfg0.N, t.val = (i 0).val / 512 := ⟨⟨(i 0).val / 512, by rw [hN]; omega⟩, rfl⟩
  obtain ⟨-, -, s2, s3⟩ := size_facts t
  obtain ⟨-, -, -, -, i4, i5⟩ := idx_facts t
  refine ⟨t, flush0_2 t, ?_⟩
  rw [mem_blk]
  intro a
  match a with
  | ⟨0, _⟩ =>
    show win0_2.index t (0 : Fin 2) * 512 ≤ (i 0).val
      ∧ (i 0).val < win0_2.index t (0 : Fin 2) * 512 + win0_2.xsize (grid0.coords t) (0 : Fin 2)
    rw [i4, s3]; split_ifs <;> omega
  | ⟨1, _⟩ =>
    show win0_2.index t (1 : Fin 2) * 128 ≤ (i 1).val
      ∧ (i 1).val < win0_2.index t (1 : Fin 2) * 128 + win0_2.xsize (grid0.coords t) (1 : Fin 2)
    rw [i5, s2]; omega

/-- THE RESULT ARRAY after the run is A·B. -/
theorem final (c : Dev nD) :
    (dats m 0 c).arrAt 2 cfg0.N = Cert.MatProduct.prod (V m c main_arg1) (V m c main_arg0) :=
  (dats m 0 c).arrAt_eq_of_cover 2 _ (fun t _ => flushed_eq m c t) cover

/-- The run, read: the result at A·B of the launch contents, the arguments unchanged. -/
theorem run : θ_run defs (onTc (τ := τ) (main (F := Ideal))) ⟨m, fun _ => 0, ρ⟩ fun r => ∀ c : Dev nD,
      r.2.mem ((c.tc : Thread nD τ).loc main_v0)
        = Cert.MatProduct.prod (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.ValueRun

end
-- ==== Proof.RefValue.lean ====
/-
  The reference computes the matrix product: its one operation is the host's dot_general of the adjacency matrix
  and the feature matrix contracting the adjacency's columns with the features' rows, which at the ideal instance
  is, entry by entry, the sum over k of adj(r, k) · sup(k, c).
-/
import proofs.«127302_g31250182046301_cont_9to1_2121_6_alg».proof.Proof.Gen.ReferenceIdeal.Read
import proofs.«127302_g31250182046301_cont_9to1_2121_6_alg».proof.Proof.MatProduct

noncomputable section

namespace Cert.ReferenceIdeal.RefValue

open Cert.ReferenceIdeal Cert.ReferenceIdeal.Gen Cert.ReferenceIdeal.Read
open Idealize.ShloMosaic Idealize.ShloMosaic.ValueIdx

/-- The reference's result, as a function of its two arguments, is the matrix product. -/
theorem ref_eq (sup : (⟨S10000x128, .f32⟩ : BufTy).Contents (Elt Ideal)) (adj : (⟨S10000x10000, .f32⟩ : BufTy).Contents (Elt Ideal)) :
    val_main_v0 (F := Ideal) sup adj = Cert.MatProduct.prod adj sup := by
  funext i
  rw [val_main_v0_apply]
  unfold Cert.MatProduct.prod
  refine Finset.sum_congr rfl fun k _ => ?_
  have el : lidx_main_v0 i k = ix2 (i 0) k := funext fun a => by
    match a with
    | ⟨0, _⟩ => rfl
    | ⟨1, _⟩ => rfl
  have er : ridx_main_v0 i k = ix2 k (i 1) := funext fun a => by
    match a with
    | ⟨0, _⟩ => rfl
    | ⟨1, _⟩ => rfl
  rw [el, er]
  rfl

end Cert.ReferenceIdeal.RefValue

end
-- ==== Proof.lean ====
/-
  The kernel computes output = adj · support for a dense 10000 × 10000 adjacency matrix and a 10000 × 128 feature
  matrix, twenty row blocks of 512 rows at a time, each block one matrix product of the staged rows of adj with the
  whole of support; the reference computes the same product in one operation.

  Over the extended reals both are, entry by entry, Σ_k adj(r, k) · support(k, c): the kernel's block product into a
  zero accumulator is that sum for the rows of its block, and the twenty blocks' rows that are written back
  (0…511, …, 9728…9999; the last block overhangs the arrays and only its first 272 rows are moved) are all the rows.
  The sum is the same sum on both sides, term for term, so no law of arithmetic beyond that is used and the
  finiteness of the inputs is never needed.

  The frames: each program runs to the end without a fault and leaves its two arguments as launched — for the
  kernel as printed with nothing said of what the product's bits are; for the idealized kernel and the reference
  as part of the runs that also name their results. The idealization rewrote no operation, so there is nothing to
  preserve beyond the program's own text read over the extended reals.
-/
import proofs.«127302_g31250182046301_cont_9to1_2121_6_alg».proof.Defs
import proofs.«127302_g31250182046301_cont_9to1_2121_6_alg».proof.Proof.Gen.Kernel
import proofs.«127302_g31250182046301_cont_9to1_2121_6_alg».proof.Proof.Gen.KernelIdeal
import proofs.«127302_g31250182046301_cont_9to1_2121_6_alg».proof.Proof.Gen.ReferenceIdeal
import proofs.«127302_g31250182046301_cont_9to1_2121_6_alg».proof.Proof.Gen.Pre_finite_inputs
import proofs.«127302_g31250182046301_cont_9to1_2121_6_alg».proof.Proof.Gen.ReferenceIdeal.Run
import proofs.«127302_g31250182046301_cont_9to1_2121_6_alg».proof.Proof.Gen.ReferenceIdeal.Read
import proofs.«127302_g31250182046301_cont_9to1_2121_6_alg».proof.Proof.KernelFrame
import proofs.«127302_g31250182046301_cont_9to1_2121_6_alg».proof.Proof.IdealRun
import proofs.«127302_g31250182046301_cont_9to1_2121_6_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.FrameRun.frame (F := Bits) m ρ

/-- The idealized kernel runs and leaves its arguments unchanged: its run to the product, the result dropped. -/
theorem frame_kernelIdeal : Cert.frame_KernelIdeal := fun m ρ _ =>
  (θ_run Cert.KernelIdeal.defs _ _).mono (fun _ h c => (h c).2) (Cert.KernelIdeal.ValueRun.run m ρ)

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the result at adj · support of the same two
    matrices: the kernel's run block by block, the reference's one product. -/
theorem algebraic : Cert.algebraic_KernelIdeal_ReferenceIdeal := by
  intro m ρ m' ρ' _ hagree
  refine ⟨_, Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
